-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x168 : Shape := ⟨2, ![20000, 168]⟩
abbrev S2x320000 : Shape := ⟨2, ![2, 320000]⟩
abbrev S320000 : Shape := ⟨1, ![320000]⟩
abbrev S256x168 : Shape := ⟨2, ![256, 168]⟩
abbrev S256 : Shape := ⟨1, ![256]⟩
abbrev S256x256 : Shape := ⟨2, ![256, 256]⟩
abbrev S_ : Shape := ⟨0, ![]⟩

class Facts : Prop where
  bcast_S_S20000x168 : S_.BroadcastsInDim S20000x168 (![] : Fin 0 → Fin S20000x168.rank)
  reducesTo_S20000x168_S_d0_1 : S20000x168.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x168 : S_.BroadcastsInDim S256x168 (![] : Fin 0 → Fin S256x168.rank)
  reducesTo_S256x168_S_d0_1 : S256x168.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S20000x168 .f32) (main_arg1 : IVec S2x320000 32) (main_arg2 : FVec F S320000 .f32) (main_arg3 : FVec F S256x168 .f32) (main_arg4 : FVec F S256 .f32) (main_arg5 : FVec F S256x256 .f32) (main_arg6 : FVec F S256 .f32) : IVec S_ 1 :=
  let main_v0 : FVec F S20000x168 .f32 := Host.absf main_arg0
  let main_cst : FVec F S_ .f32 := constant S_ .f32 0x7F800000#32
  let main_v1 : FVec F S20000x168 .f32 := broadcastInDim S20000x168 ![] bcast_S_S20000x168 main_cst
  let main_v2 : IVec S20000x168 1 := cmpf .olt main_v0 main_v1
  let main_c : IVec S_ 1 := constantI S_ 1 1#1
  let main_v3 : IVec S_ 1 := (fun x v => Host.reduce IntOp.andi x v reducesTo_S20000x168_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x168 .f32 := Host.absf main_arg3
  let main_cst_2 : FVec F S_ .f32 := constant S_ .f32 0x7F800000#32
  let main_v10 : FVec F S256x168 .f32 := broadcastInDim S256x168 ![] bcast_S_S256x168 main_cst_2
  let main_v11 : IVec S256x168 1 := cmpf .olt main_v9 main_v10
  let main_c_3 : IVec S_ 1 := constantI S_ 1 1#1
  let main_v12 : IVec S_ 1 := (fun x v => Host.reduce IntOp.andi x v reducesTo_S256x168_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S20000x168 : Shape := ⟨2, ![20000, 168]⟩
abbrev S2x320000 : Shape := ⟨2, ![2, 320000]⟩
abbrev S320000 : Shape := ⟨1, ![320000]⟩
abbrev S256x168 : Shape := ⟨2, ![256, 168]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S168x256 : Shape := ⟨2, ![168, 256]⟩
abbrev S20000x256 : Shape := ⟨2, ![20000, 256]⟩
abbrev S2000x168 : Shape := ⟨2, ![2000, 168]⟩
abbrev S2000x256 : Shape := ⟨2, ![2000, 256]⟩
abbrev S320000x256 : Shape := ⟨2, ![320000, 256]⟩
abbrev S20000x1 : Shape := ⟨2, ![20000, 1]⟩
abbrev S1x256 : Shape := ⟨2, ![1, 256]⟩
abbrev S2000x1 : Shape := ⟨2, ![2000, 1]⟩

abbrev nBuf : Space → Nat
  | .hbm => 90
  | .vmem => 28
  | .smem => 0
  | _ => 0

abbrev bufTy : (tb : Table) → Fin (tcTables nBuf tb) → BufTy
  | .hbm, ⟨0, _⟩ => ⟨S20000x168, .f32⟩
  | .hbm, ⟨1, _⟩ => ⟨S2x320000, .i32⟩
  | .hbm, ⟨2, _⟩ => ⟨S320000, .f32⟩
  | .hbm, ⟨3, _⟩ => ⟨S256x168, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .f32⟩
  | .hbm, ⟨12, _⟩ => ⟨S20000, .f32⟩
  | .hbm, ⟨13, _⟩ => ⟨S320000x1, .i32⟩
  | .hbm, ⟨14, _⟩ => ⟨S20000, .f32⟩
  | .hbm, ⟨15, _⟩ => ⟨S_, .f32⟩
  | .hbm, ⟨16, _⟩ => ⟨S20000, .f32⟩
  | .hbm, ⟨17, _⟩ => ⟨S20000, .f32⟩
  | .hbm, ⟨18, _⟩ => ⟨S_, .f32⟩
  | .hbm, ⟨19, _⟩ => ⟨S20000, .f32⟩
  | .hbm, ⟨20, _⟩ => ⟨S20000, .i1⟩
  | .hbm, ⟨21, _⟩ => ⟨S20000, .f32⟩
  | .hbm, ⟨22, _⟩ => ⟨S_, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000, .f32⟩
  | .hbm, ⟨35, _⟩ => ⟨S320000, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000, .f32⟩
  | .hbm, ⟨45, _⟩ => ⟨S320000, .f32⟩
  | .hbm, ⟨46, _⟩ => ⟨S168x256, .f32⟩
  | .hbm, ⟨47, _⟩ => ⟨S20000x256, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x256, .f32⟩
  | .hbm, ⟨57, _⟩ => ⟨S320000x1, .f32⟩
  | .hbm, ⟨58, _⟩ => ⟨S320000x256, .f32⟩
  | .hbm, ⟨59, _⟩ => ⟨S320000x256, .f32⟩
  | .hbm, ⟨60, _⟩ => ⟨S_, .f32⟩
  | .hbm, ⟨61, _⟩ => ⟨S20000x256, .f32⟩
  | .hbm, ⟨62, _⟩ => ⟨S320000x1, .i32⟩
  | .hbm, ⟨63, _⟩ => ⟨S20000x256, .f32⟩
  | .hbm, ⟨64, _⟩ => ⟨S20000, .f32⟩
  | .hbm, ⟨65, _⟩ => ⟨S20000x1, .f32⟩
  | .hbm, ⟨66, _⟩ => ⟨S1x256, .f32⟩
  | .hbm, ⟨67, _⟩ => ⟨S20000x256, .f32⟩
  | .hbm, ⟨68, _⟩ => ⟨S256x256, .f32⟩
  | .hbm, ⟨69, _⟩ => ⟨S20000x256, .f32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S320000x1, .i32⟩
  | .hbm, ⟨78, _⟩ => ⟨S320000x256, .f32⟩
  | .hbm, ⟨79, _⟩ => ⟨S320000x1, .f32⟩
  | .hbm, ⟨80, _⟩ => ⟨S320000x256, .f32⟩
  | .hbm, ⟨81, _⟩ => ⟨S320000x256, .f32⟩
  | .hbm, ⟨82, _⟩ => ⟨S_, .f32⟩
  | .hbm, ⟨83, _⟩ => ⟨S20000x256, .f32⟩
  | .hbm, ⟨84, _⟩ => ⟨S320000x1, .i32⟩
  | .hbm, ⟨85, _⟩ => ⟨S20000x256, .f32⟩
  | .hbm, ⟨86, _⟩ => ⟨S20000, .f32⟩
  | .hbm, ⟨87, _⟩ => ⟨S20000x1, .f32⟩
  | .hbm, ⟨88, _⟩ => ⟨S1x256, .f32⟩
  | .hbm, ⟨89, _⟩ => ⟨S20000x256, .f32⟩
  | .local _ .vmem, ⟨0, _⟩ => ⟨S2000x168, .f32⟩
  | .local _ .vmem, ⟨1, _⟩ => ⟨S2000x168, .f32⟩
  | .local _ .vmem, ⟨2, _⟩ => ⟨S168x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | _, _ => ⟨S20000x168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S168x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  transposes_S256x168_S168x256_1_0 : S256x168.Transposes [1, 0] S168x256
  inb_S2000x168_S2000x168_0_0 : ∀ a, (![0, 0] : Fin 2 → Nat) a + S2000x168.size a ≤ S2000x168.size a
  h_S2000x168 : 0 < S2000x168.numel
  bitsLt_bf16_f32 : FTy.bits .bf16 < FTy.bits .f32
  inb_S168x256_S168x256_0_0 : ∀ a, (![0, 0] : Fin 2 → Nat) a + S168x256.size a ≤ S168x256.size a
  h_S168x256 : 0 < S168x256.numel
  shapeCasts_S168x256_S168x256 : S168x256.ShapeCasts S168x256
  inb_S2000x256_S2000x256_0_0 : ∀ a, (![0, 0] : Fin 2 → Nat) a + S2000x256.size a ≤ S2000x256.size a
  h_S2000x256 : 0 < S2000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S2000x168_S168x256_S2000x256_1_0_0_1_n_n_wf : DotDims.WF S2000x168 S168x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x168.size a ≤ S20000x168.size a
  hwx0_0 : ∀ i : grid0.Coords, EltTy.bits .f32 = 32 ∨ (Rect.block (s := S20000x168) S2000x168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S168x256.size a ≤ S168x256.size a
  hwx0_1 : ∀ i : grid0.Coords, EltTy.bits .f32 = 32 ∨ (Rect.block (s := S168x256) S168x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S20000x256.size a
  hwx3_4 : ∀ i : grid3.Coords, EltTy.bits .f32 = 32 ∨ (Rect.block (s := S20000x256) S2000x256.size (cc3_transform_4 i) (hinb3_4 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S2000x168_S168x256_S2000x256_1_0_0_1_n_n : DotDims S2000x168 S168x256 S2000x256 where
  lhsContracting := [1]
  rhsContracting := [0]
  lhsNonContracting := [0]
  rhsNonContracting := [1]
  lhsBatch := []
  rhsBatch := []
  wf := dot_S2000x168_S168x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S168x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S20000x168 : Shape := ⟨2, ![20000, 168]⟩
abbrev S2x320000 : Shape := ⟨2, ![2, 320000]⟩
abbrev S320000 : Shape := ⟨1, ![320000]⟩
abbrev S256x168 : Shape := ⟨2, ![256, 168]⟩
abbrev S256 : Shape := ⟨1, ![256]⟩
abbrev S256x256 : Shape := ⟨2, ![256, 256]⟩
abbrev S1x320000 : Shape := ⟨2, ![1, 320000]⟩
abbrev S168x256 : Shape := ⟨2, ![168, 256]⟩
abbrev S20000x256 : Shape := ⟨2, ![20000, 256]⟩
abbrev S_ : Shape := ⟨0, ![]⟩
abbrev S20000 : Shape := ⟨1, ![20000]⟩
abbrev S320000x1 : Shape := ⟨2, ![320000, 1]⟩
abbrev S320000x256 : Shape := ⟨2, ![320000, 256]⟩
abbrev S20000x1 : Shape := ⟨2, ![20000, 1]⟩
abbrev S1x256 : Shape := ⟨2, ![1, 256]⟩

abbrev nBuf : Space → Nat
  | .hbm => 139
  | .vmem => 0
  | .smem => 0
  | _ => 0

abbrev hbmTy0_0 (i : Nat) : BufTy := match i % 128 with
  | 0 => ⟨S20000x168, .f32⟩
  | 1 => ⟨S2x320000, .i32⟩
  | 2 => ⟨S320000, .f32⟩
  | 3 => ⟨S256x168, .f32⟩
  | 4 => ⟨S256, .f32⟩
  | 5 => ⟨S256x256, .f32⟩
  | 6 => ⟨S256, .f32⟩
  | 7 => ⟨S1x320000, .i32⟩
  | 8 => ⟨S320000, .i32⟩
  | 9 => ⟨S1x320000, .i32⟩
  | 10 => ⟨S320000, .i32⟩
  | 11 => ⟨S168x256, .f32⟩
  | 12 => ⟨S20000x256, .f32⟩
  | 13 => ⟨S_, .f32⟩
  | 14 => ⟨S20000, .f32⟩
  | 15 => ⟨S320000x1, .i32⟩
  | 16 => ⟨S20000, .f32⟩
  | 17 => ⟨S_, .f32⟩
  | 18 => ⟨S20000, .f32⟩
  | 19 => ⟨S20000, .f32⟩
  | 20 => ⟨S_, .f32⟩
  | 21 => ⟨S20000, .f32⟩
  | 22 => ⟨S20000, .i1⟩
  | 23 => ⟨S20000, .f32⟩
  | 24 => ⟨S_, .f32⟩
  | 25 => ⟨S_, .f32⟩
  | 26 => ⟨S20000, .f32⟩
  | 27 => ⟨S20000, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000, .f32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000x1, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x256, .f32⟩
  | 58 => ⟨S320000x256, .f32⟩
  | 59 => ⟨S320000x256, .f32⟩
  | 60 => ⟨S_, .f32⟩
  | 61 => ⟨S20000x256, .f32⟩
  | 62 => ⟨S320000x1, .i32⟩
  | 63 => ⟨S20000x256, .f32⟩
  | 64 => ⟨S20000, .f32⟩
  | 65 => ⟨S20000x1, .f32⟩
  | 66 => ⟨S20000x256, .f32⟩
  | 67 => ⟨S20000x256, .f32⟩
  | 68 => ⟨S20000x256, .f32⟩
  | 69 => ⟨S1x256, .f32⟩
  | 70 => ⟨S20000x256, .f32⟩
  | 71 => ⟨S20000x256, .f32⟩
  | 72 => ⟨S_, .f32⟩
  | 73 => ⟨S20000x256, .f32⟩
  | 74 => ⟨S20000x256, .f32⟩
  | 75 => ⟨S256x256, .f32⟩
  | 76 => ⟨S20000x256, .f32⟩
  | 77 => ⟨S_, .f32⟩
  | 78 => ⟨S20000, .f32⟩
  | 79 => ⟨S320000x1, .i32⟩
  | 80 => ⟨S20000, .f32⟩
  | 81 => ⟨S_, .f32⟩
  | 82 => ⟨S20000, .f32⟩
  | 83 => ⟨S20000, .f32⟩
  | 84 => ⟨S_, .f32⟩
  | 85 => ⟨S20000, .f32⟩
  | 86 => ⟨S20000, .i1⟩
  | 87 => ⟨S20000, .f32⟩
  | 88 => ⟨S_, .f32⟩
  | 89 => ⟨S_, .f32⟩
  | 90 => ⟨S20000, .f32⟩
  | 91 => ⟨S20000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000, .f32⟩
  | 101 => ⟨S320000, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000, .f32⟩
  | 111 => ⟨S320000, .f32⟩
  | 112 => ⟨S320000x1, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x256, .f32⟩
  | 122 => ⟨S320000x256, .f32⟩
  | 123 => ⟨S320000x256, .f32⟩
  | 124 => ⟨S_, .f32⟩
  | 125 => ⟨S20000x256, .f32⟩
  | 126 => ⟨S320000x1, .i32⟩
  | 127 => ⟨S20000x256, .f32⟩
  | _ => ⟨S20000x168, .f32⟩

abbrev hbmTy0_1 (i : Nat) : BufTy := match i % 128 with
  | 0 => ⟨S20000, .f32⟩
  | 1 => ⟨S20000x1, .f32⟩
  | 2 => ⟨S20000x256, .f32⟩
  | 3 => ⟨S20000x256, .f32⟩
  | 4 => ⟨S20000x256, .f32⟩
  | 5 => ⟨S1x256, .f32⟩
  | 6 => ⟨S20000x256, .f32⟩
  | 7 => ⟨S20000x256, .f32⟩
  | 8 => ⟨S_, .f32⟩
  | 9 => ⟨S20000x256, .f32⟩
  | 10 => ⟨S20000x256, .f32⟩
  | _ => ⟨S20000x168, .f32⟩

abbrev hbmTy (i : Nat) : BufTy := match i / 128 with
  | 0 => hbmTy0_0 i
  | 1 => hbmTy0_1 i
  | _ => ⟨S20000x168, .f32⟩

abbrev bufTy : (tb : Table) → Fin (tcTables nBuf tb) → BufTy
  | .hbm, ⟨i, _⟩ => hbmTy i
  | _, _ => ⟨S20000x168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call1_cst : Ref sig .tc := ⟨.hbm, 72, rfl⟩
abbrev main_call1_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call3_cst : Ref sig .tc := ⟨.hbm, 136, rfl⟩
abbrev main_call3_v0 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S256x168_S168x256_1_0 : S256x168.Transposes [1, 0] S168x256
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  transposes_S256x256_S256x256_1_0 : S256x256.Transposes [1, 0] S256x256
  dot_S20000x168_S168x256_S20000x256_1_0_0_1_n_n_wf : DotDims.WF S20000x168 S168x256 S20000x256 [1] [0] [0] [1] [] []
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []

variable [Facts₀]

def dot_S20000x168_S168x256_S20000x256_1_0_0_1_n_n : DotDims S20000x168 S168x256 S20000x256 where
  lhsContracting := [1]
  rhsContracting := [0]
  lhsNonContracting := [0]
  rhsNonContracting := [1]
  lhsBatch := []
  rhsBatch := []
  wf := dot_S20000x168_S168x256_S20000x256_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run, with the result named.

  The program is four kernel regions among stretches of host operations.  Its buffers' contents at each boundary
  form a fold from the launch memory: a stretch applies its operations, a region leaves each of its arrays at what its
  write-backs produce and every other buffer as it found it.  The run launched over these segments terminates on every
  core with every unscoped buffer at the fold's last valuation; read at the result buffer this gives the result, read
  at an argument (which nothing writes) it gives the launch contents.
-/
import proofs.«177197_j43361989820778_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    valuation of the fold and every argument as launched. -/
theorem run_result : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Whole

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibPlainDot.lean ====
/-
  A plain matrix product as one function of the whole matrices, and the host's `dot_general` as that function.

  `matProd X W` is the product of an `[M, K]` matrix by a `[K, N]` matrix on the extended reals, entry by entry:
  `(X · W)(i, o) = Σ_k X(i, k) · W(k, o)`.  The host's `dot_general` that contracts the first operand's second axis with
  the second operand's first axis, with no batch axis, IS this function at the ideal values — for any dimension record
  with this layout, given the record's four coordinate facts (which operand coordinate reads the result index, which
  the contraction index), whatever the extents, the precision and the schedule key.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- The matrix product on the extended reals: entry `(i, o)` is `Σ_k X(i, k) · W(k, o)`. -/
def matProd {M K N : ℕ} (X : (⟨2, ![M, K]⟩ : Shape).Idx → EReal) (W : (⟨2, ![K, N]⟩ : Shape).Idx → EReal) :
    (⟨2, ![M, N]⟩ : Shape).Idx → EReal :=
  fun j => ∑ k : Fin K, X (ix2 (j 0) k) * W (ix2 k (j 1))

/-- The product read at a row and a column. -/
theorem matProd_apply {M K N : ℕ} (X : (⟨2, ![M, K]⟩ : Shape).Idx → EReal) (W : (⟨2, ![K, N]⟩ : Shape).Idx → EReal)
    (i : Fin M) (o : Fin N) : matProd X W (ix2 i o) = ∑ k : Fin K, X (ix2 i k) * W (ix2 k o) := rfl

/-- The host's plain `dot_general`, read at `(i, o)`, is `Σ_k lhs(i, k) · rhs(k, o)`. -/
theorem dotGeneral_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂)
    (i : Fin M) (o : Fin N) :
    FloatOps.dotGeneral d prec sched lhs rhs (ix2 i o) = ∑ k : Fin K, lhs (ix2 i k) * rhs (ix2 k o) := by
  refine (Ideal.dotGeneral_apply d prec sched lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

/-- The host's plain `dot_general` is the matrix product of its operands. -/
theorem dotGeneral_eq_matProd {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂) :
    FloatOps.dotGeneral d prec sched lhs rhs = matProd lhs rhs :=
  funext fun j => by
    rw [eq_ix2 j]
    exact dotGeneral_apply d hr hs l0 l1 r0 r1 prec sched lhs rhs (j 0) (j 1)

end Cert.Lib.PlainDot

end
-- ==== Proof.Region0.lean ====
/-
  Region 0: a row-tiled matrix product.

  The grid has ten points; point t holds rows 2000 t … 2000 t + 1999 of the left matrix and the whole right matrix, and
  writes rows 2000 t … 2000 t + 1999 of the result.  A block's product is the matrix product of the blocks (the format
  changes are the identity on extended reals, the accumulator starts at zero), a row block of a matrix product is the
  product of the row block with the whole right factor, and the ten row blocks cover the result: after the region the
  output array is the matrix product of the two input arrays as the region found them.
-/
import proofs.«177197_j43361989820778_1_alg».proof.Proof.Gen.KernelIdeal.Frame
import proofs.«177197_j43361989820778_1_alg».proof.Proof.LibPlainMatmul
import proofs.«177197_j43361989820778_1_alg».proof.Proof.LibPlainDot
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Lib.PlainDot

theorem hz : (![0, 0] : Fin 2 → Nat) = fun _ => 0 := funext fun a => by fin_cases a <;> rfl

theorem dotA_l0 (i : S2000x256.Idx) (q : dot_S2000x168_S168x256_S2000x256_1_0_0_1_n_n.contr.Idx) : (dot_S2000x168_S168x256_S2000x256_1_0_0_1_n_n.lhsIdx i q 0).val = (i 0).val := by
  unfold DotDims.lhsIdx
  rw [dif_neg (show ¬(0 : Fin S2000x168.rank) ∈ dot_S2000x168_S168x256_S2000x256_1_0_0_1_n_n.lhsBatch by decide), dif_pos (show (0 : Fin S2000x168.rank) ∈ dot_S2000x168_S168x256_S2000x256_1_0_0_1_n_n.lhsNonContracting by decide)]
  rfl
theorem dotA_l1 (i : S2000x256.Idx) (q : dot_S2000x168_S168x256_S2000x256_1_0_0_1_n_n.contr.Idx) : (dot_S2000x168_S168x256_S2000x256_1_0_0_1_n_n.lhsIdx i q 1).val = (q ⟨0, by decide⟩).val :=
  dot_S2000x168_S168x256_S2000x256_1_0_0_1_n_n.lhsIdx_val_of_single rfl i q
theorem dotA_r0 (i : S2000x256.Idx) (q : dot_S2000x168_S168x256_S2000x256_1_0_0_1_n_n.contr.Idx) : (dot_S2000x168_S168x256_S2000x256_1_0_0_1_n_n.rhsIdx i q 0).val = (q ⟨0, by decide⟩).val :=
  dot_S2000x168_S168x256_S2000x256_1_0_0_1_n_n.rhsIdx_val_of_single rfl i q
theorem dotA_r1 (i : S2000x256.Idx) (q : dot_S2000x168_S168x256_S2000x256_1_0_0_1_n_n.contr.Idx) : (dot_S2000x168_S168x256_S2000x256_1_0_0_1_n_n.rhsIdx i q 1).val = (i 1).val := by
  unfold DotDims.rhsIdx
  rw [dif_neg (show ¬(1 : Fin S168x256.rank) ∈ dot_S2000x168_S168x256_S2000x256_1_0_0_1_n_n.rhsBatch by decide), dif_pos (show (1 : Fin S168x256.rank) ∈ dot_S2000x168_S168x256_S2000x256_1_0_0_1_n_n.rhsNonContracting by decide)]
  rfl
/-- The body's value on a pair of blocks is their matrix product. -/
theorem pay0_eq (x0 : Vec Ideal S2000x168 .f32) (x1 : Vec Ideal S168x256 .f32) :
    k0_pay1 (F := Ideal) x0 x1 = matProd (M := 2000) (K := 168) (N := 256) x0 x1 := by
  funext j
  rw [eq_ix2 j]
  unfold k0_pay1
  dsimp only
  rw [shapeCast_self]
  exact Cert.Lib.PlainMatmul.matmul_zero_apply dot_S2000x168_S168x256_S2000x256_1_0_0_1_n_n rfl rfl (fun i q => dotA_l0 i q) (fun i q => dotA_l1 i q) (fun i q => dotA_r0 i q) (fun i q => dotA_r1 i q) none _ _ (j 0) (j 1)

section
variable (V : (c : Dev nD) → (b : Ref sig .tc) → Buf (Elt Ideal) ((c : Thread nD τ).loc b))

/-- The printed index maps over the grid: the left factor's and the result's blocks move down with the point, the
    right factor's stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
theorem flushed0_eq (c : Dev nD) (t : Fin cfg0.N) :
    (dat0 V c).flushed 2 t = ((cfg0.win 2).blk t).view.read (Elt Ideal)
      (matProd (M := 20000) (K := 168) (N := 256) (V c main_arg0) (V c main_v29)) := by
  show (cfg0.win 2).cut (grid0.coords t) ((dat0 V c).after 2 t) = _
  rw [after0_2]
  unfold out0_2
  rw [View.canon_unit_zero hz]
  simp only [View.ld_unit_zero (S := S2000x168) hz, View.ld_unit_zero (S := S168x256) hz]
  rw [pay0_eq]
  obtain ⟨e0, e1, e2, e3, e4, e5⟩ := idx_facts0 t
  funext j
  show matProd (M := 2000) (K := 168) (N := 256) (iblk0 V c 0 t) (iblk0 V c 1 t) j
     = matProd (M := 20000) (K := 168) (N := 256) (V c main_arg0) (V c main_v29) (((cfg0.win 2).blk t).view.emb j)
  simp only [matProd]
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 168 + 1 * k.val = k.val; omega
  have hr : iblk0 V c 1 t (ix2 k (j 1)) = V c main_v29 (ix2 k ((((cfg0.win 2).blk t).view.emb j) 1)) := by
    show V c main_v29 (((cfg0.win 1).blk t).view.emb (ix2 k (j 1))) = _
    refine congrArg (V c main_v29) (funext fun a => Fin.ext ?_)
    match a with
    | ⟨0, _⟩ => show win0_1.index t (0 : Fin 2) * 168 + 1 * k.val = k.val; omega
    | ⟨1, _⟩ => show win0_1.index t (1 : Fin 2) * 256 + 1 * (j 1).val = win0_2.index t (1 : Fin 2) * 256 + 1 * (j 1).val; omega
  rw [hl, hr]

/-- Every block row of the result is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- An index of the result array is in point t's block iff each coordinate is in the block's range on its axis. -/
theorem mem_blk0 (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The row blocks cover the result: row r lies in the block of point r / 2000. -/
theorem cover0 (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the region the result array is the matrix product of the two input arrays as the region found them. -/
theorem final0 (c : Dev nD) :
    (dat0 V c).arrAt 2 cfg0.N = matProd (M := 20000) (K := 168) (N := 256) (V c main_arg0) (V c main_v29) :=
  (dat0 V c).arrAt_eq_of_cover 2 _ (fun t _ => flushed0_eq V c t) cover0

end

end Cert.KernelIdeal.Whole

end
-- ==== Proof.LibCombine.lean ====
/-
  The last step of a graph-convolution layer, as one function of whole arrays.

  `combine a x d b` is, entry by entry, `max ((a + d · x) + b) 0` on the extended reals, where `a` and `x` are
  `[N, D]` arrays (the aggregated neighbours and the transformed features), `d` is an `[N, 1]` column (one scale per
  row: the self-loop weight) and `b` a `[1, D]` row (the bias).  Two programs compute it: a kernel body, on vectors,
  with `vector.broadcast` of the column and of the row and a splat zero; and the host, on tensors, with
  `broadcast_in_dim` of the column, of the row and of the scalar zero.  Both are this function: the broadcasts read the
  column at the row's coordinate and the row at the column's, and the operations are pointwise.
-/
import Idealize.ShloMosaic.PureOps.Ideal.Laws
import Idealize.ShloMosaic.Lib.ValueIdx
import Idealize.ShloMosaic.Lib.Pipeline.Value
import Idealize.ShloMosaic.Lib.IdealHost

noncomputable section

namespace Cert.Lib.Combine

open Idealize.ShloMosaic Idealize.ShloMosaic.ValueIdx

/-- `max ((a + d · x) + b) 0`, the column `d` read at the entry's row and the row `b` at its column. -/
def combine {N D : ℕ} (a x : (⟨2, ![N, D]⟩ : Shape).Idx → EReal) (d : (⟨2, ![N, 1]⟩ : Shape).Idx → EReal)
    (b : (⟨2, ![1, D]⟩ : Shape).Idx → EReal) : (⟨2, ![N, D]⟩ : Shape).Idx → EReal :=
  fun i => max (a i + d (ix2 (i 0) (0 : Fin 1)) * x i + b (ix2 (0 : Fin 1) (i 1))) (Ideal.ofBits .f32 0x00000000#32)

theorem combine_apply {N D : ℕ} (a x : (⟨2, ![N, D]⟩ : Shape).Idx → EReal) (d : (⟨2, ![N, 1]⟩ : Shape).Idx → EReal)
    (b : (⟨2, ![1, D]⟩ : Shape).Idx → EReal) (p : Fin N) (q : Fin D) :
    combine a x d b (ix2 p q)
      = max (a (ix2 p q) + d (ix2 p (0 : Fin 1)) * x (ix2 p q) + b (ix2 (0 : Fin 1) q)) (Ideal.ofBits .f32 0x00000000#32) := rfl

/-- A column broadcast across the columns, read at `(p, q)`, is the column at row `p`. -/
theorem broadcastTo_col_apply {N D : ℕ} {α : Type} (v : (⟨2, ![N, 1]⟩ : Shape).Idx → α)
    (h : (⟨2, ![N, 1]⟩ : Shape).Broadcasts ⟨2, ![N, D]⟩) (p : Fin N) (q : Fin D) :
    broadcastTo ⟨2, ![N, D]⟩ v h (ix2 p q) = v (ix2 p (0 : Fin 1)) := by
  refine broadcastTo_apply v h (ix2 p q) (ix2 p (0 : Fin 1)) fun ax => ?_
  match ax with
  | ⟨0, _⟩ =>
    show p.val = if N = 1 then 0 else p.val
    split
    · have := p.isLt; omega
    · rfl
  | ⟨1, _⟩ => rfl

/-- A row broadcast down the rows, read at `(p, q)`, is the row at column `q`. -/
theorem broadcastTo_row_apply {N D : ℕ} {α : Type} (v : (⟨2, ![1, D]⟩ : Shape).Idx → α)
    (h : (⟨2, ![1, D]⟩ : Shape).Broadcasts ⟨2, ![N, D]⟩) (p : Fin N) (q : Fin D) :
    broadcastTo ⟨2, ![N, D]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if D = 1 then 0 else q.val
    split
    · have := q.isLt; omega
    · rfl

/-- The kernel body's spelling, on vectors. -/
theorem vector_form {N D : ℕ} (a x : FVec Ideal ⟨2, ![N, D]⟩ .f32) (d : FVec Ideal ⟨2, ![N, 1]⟩ .f32)
    (b : FVec Ideal ⟨2, ![1, D]⟩ .f32) (hd : (⟨2, ![N, 1]⟩ : Shape).Broadcasts ⟨2, ![N, D]⟩)
    (hb : (⟨2, ![1, D]⟩ : Shape).Broadcasts ⟨2, ![N, D]⟩) :
    maximumf (addf (addf a (mulf (broadcastTo ⟨2, ![N, D]⟩ d hd) x)) (broadcastTo ⟨2, ![N, D]⟩ b hb))
        (broadcast ⟨2, ![N, D]⟩ (Scalar.ofBits (F := Ideal) .f32 0x00000000#32))
      = combine a x d b := by
  funext j
  obtain ⟨p, q, rfl⟩ : ∃ (p : Fin N) (q : Fin D), j = ix2 p q := ⟨j 0, j 1, eq_ix2 j⟩
  rw [combine_apply, maximumf_apply, addf_apply, addf_apply, mulf_apply, broadcastTo_col_apply, broadcastTo_row_apply,
    broadcast_apply]
  rfl

/-- A column broadcast in dimensions `[0, 1]`, read at `(p, q)`, is the column at row `p`. -/
theorem broadcastInDim_col_apply {N D : ℕ} {α : Type} (v : (⟨2, ![N, 1]⟩ : Shape).Idx → α)
    (h : (⟨2, ![N, 1]⟩ : Shape).BroadcastsInDim ⟨2, ![N, D]⟩ ![0, 1]) (p : Fin N) (q : Fin D) :
    broadcastInDim ⟨2, ![N, D]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if N = 1 then 0 else p.val
    split
    · have := p.isLt; omega
    · rfl
  | ⟨1, _⟩ => rfl

/-- A row broadcast in dimensions `[0, 1]`, read at `(p, q)`, is the row at column `q`. -/
theorem broadcastInDim_row_apply {N D : ℕ} {α : Type} (v : (⟨2, ![1, D]⟩ : Shape).Idx → α)
    (h : (⟨2, ![1, D]⟩ : Shape).BroadcastsInDim ⟨2, ![N, D]⟩ ![0, 1]) (p : Fin N) (q : Fin D) :
    broadcastInDim ⟨2, ![N, D]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if D = 1 then 0 else q.val
    split
    · have := q.isLt; omega
    · rfl

/-- The host's spelling, on tensors. -/
theorem host_form {N D : ℕ} (a x : FVec Ideal ⟨2, ![N, D]⟩ .f32) (d : FVec Ideal ⟨2, ![N, 1]⟩ .f32)
    (b : FVec Ideal ⟨2, ![1, D]⟩ .f32) (hd : (⟨2, ![N, 1]⟩ : Shape).BroadcastsInDim ⟨2, ![N, D]⟩ ![0, 1])
    (hb : (⟨2, ![1, D]⟩ : Shape).BroadcastsInDim ⟨2, ![N, D]⟩ ![0, 1])
    (hz : (⟨0, ![]⟩ : Shape).BroadcastsInDim ⟨2, ![N, D]⟩ ![]) :
    maximumf (addf (addf a (mulf (broadcastInDim ⟨2, ![N, D]⟩ ![0, 1] hd d) x)) (broadcastInDim ⟨2, ![N, D]⟩ ![0, 1] hb b))
        (broadcastInDim ⟨2, ![N, D]⟩ ![] hz (constant (F := Ideal) ⟨0, ![]⟩ .f32 0x00000000#32))
      = combine a x d b := by
  funext j
  obtain ⟨p, q, rfl⟩ : ∃ (p : Fin N) (q : Fin D), j = ix2 p q := ⟨j 0, j 1, eq_ix2 j⟩
  rw [combine_apply, maximumf_apply, addf_apply, addf_apply, mulf_apply, broadcastInDim_col_apply, broadcastInDim_row_apply,
    broadcastInDim_scalar_apply]
  rfl

/-! ## The bias row

The host lays a `[D]` vector out as the `[1, D]` row in two ways: by a reshape, or by a broadcast in dimension 1.
Both read the vector at the column's coordinate. -/

/-- A vector reshaped to a one-row matrix, read at `(0, q)`, is the vector at `q`. -/
theorem shapeCast_row_apply {D : ℕ} {α : Type} (v : (⟨1, ![D]⟩ : Shape).Idx → α)
    (h : (⟨1, ![D]⟩ : Shape).ShapeCasts ⟨2, ![1, D]⟩) (q : Fin D) :
    shapeCast ⟨2, ![1, D]⟩ v h (ix2 (0 : Fin 1) q) = v (ix1 q) :=
  shapeCast_apply v h _ _ (by
    rw [Shape.rowMajor_val_one, Shape.rowMajor_val_two]
    show q.val = 0 * D + q.val
    omega)

/-- A vector broadcast in dimension 1 to a one-row matrix, read at `(0, q)`, is the vector at `q`. -/
theorem broadcastInDim_row1_apply {D : ℕ} {α : Type} (v : (⟨1, ![D]⟩ : Shape).Idx → α)
    (h : (⟨1, ![D]⟩ : Shape).BroadcastsInDim ⟨2, ![1, D]⟩ ![1]) (q : Fin D) :
    broadcastInDim ⟨2, ![1, D]⟩ ![1] h v (ix2 (0 : Fin 1) q) = v (ix1 q) := by
  refine broadcastInDim_apply ![1] h v (ix2 (0 : Fin 1) q) (ix1 q) fun ax => ?_
  match ax with
  | ⟨0, _⟩ =>
    show q.val = if D = 1 then 0 else q.val
    split
    · have := q.isLt; omega
    · rfl

/-- The two layouts of the bias row are one array. -/
theorem row_reshape_eq_broadcast {D : ℕ} {α : Type} (v : (⟨1, ![D]⟩ : Shape).Idx → α)
    (h : (⟨1, ![D]⟩ : Shape).ShapeCasts ⟨2, ![1, D]⟩) (h' : (⟨1, ![D]⟩ : Shape).BroadcastsInDim ⟨2, ![1, D]⟩ ![1]) :
    shapeCast ⟨2, ![1, D]⟩ v h = broadcastInDim ⟨2, ![1, D]⟩ ![1] h' v := by
  funext j
  obtain ⟨p, q, rfl⟩ : ∃ (p : Fin 1) (q : Fin D), j = ix2 p q := ⟨j 0, j 1, eq_ix2 j⟩
  obtain rfl : p = 0 := Subsingleton.elim _ _
  rw [shapeCast_row_apply, broadcastInDim_row1_apply]

end Cert.Lib.Combine

end
-- ==== Proof.Region1.lean ====
/-
  Region 1: the first layer's last step, row-tiled.

  Point t holds rows 2000 t … 2000 t + 1999 of the aggregated neighbours, of the transformed features and of the scale
  column, and the whole bias row; it writes the same rows of the result, `max ((a + d · x) + b) 0` entry by entry.  The
  body's vector operations on the four blocks are the function `combine` of the blocks; a row block of `combine` of
  four arrays is `combine` of their row blocks (the bias row whole), since an entry reads only its own row of the
  first three and its own column of the row; and the ten row blocks cover the result.
-/
import proofs.«177197_j43361989820778_1_alg».proof.Proof.Gen.KernelIdeal.Frame
import proofs.«177197_j43361989820778_1_alg».proof.Proof.LibPlainMatmul
import proofs.«177197_j43361989820778_1_alg».proof.Proof.LibPlainDot
import proofs.«177197_j43361989820778_1_alg».proof.Proof.Region0
import proofs.«177197_j43361989820778_1_alg».proof.Proof.LibCombine
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Lib.PlainDot

open Cert.Lib.Combine

/-- The body's value on its four blocks is `combine` of them. -/
theorem pay1_eq (a : Vec Ideal S2000x256 .f32) (d : Vec Ideal S2000x1 .f32) (x : Vec Ideal S2000x256 .f32) (b : Vec Ideal S1x256 .f32) :
    k1_pay1 (F := Ideal) a d x b = combine (N := 2000) (D := 256) a x d b := by
  unfold k1_pay1
  dsimp only
  rw [shapeCast_self, shapeCast_self, shapeCast_self, shapeCast_self]
  exact vector_form (N := 2000) (D := 256) a x d b _ _

section
variable (V : (c : Dev nD) → (b : Ref sig .tc) → Buf (Elt Ideal) ((c : Thread nD τ).loc b))

/-- The printed index maps over the grid: the aggregate's, the features', the scale column's and the result's blocks
    move down with the point; the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 2000000 in
/-- What point t writes back is block t of `combine` of the four arrays. -/
theorem flushed1_eq (c : Dev nD) (t : Fin cfg1.N) :
    (dat1 V c).flushed 4 t = ((cfg1.win 4).blk t).view.read (Elt Ideal)
      (combine (N := 20000) (D := 256) (V c main_v43) (V c main_v30) (V c main_v45) (V c main_v46)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S1x256) hz]
  rw [pay1_eq]
  obtain ⟨e0, e1, e2, e3, e4, e5, e6, e7, e8, e9⟩ := idx_facts1 t
  funext j
  show combine (N := 2000) (D := 256) (iblk1 V c 0 t) (iblk1 V c 1 t) (iblk1 V c 2 t) (iblk1 V c 3 t) j
     = combine (N := 20000) (D := 256) (V c main_v43) (V c main_v30) (V c main_v45) (V c main_v46) (((cfg1.win 4).blk t).view.emb j)
  simp only [combine]
  have h0 : iblk1 V c 0 t j = V c main_v43 (((cfg1.win 4).blk t).view.emb j) := by
    show V c main_v43 (((cfg1.win 0).blk t).view.emb j) = _
    refine congrArg (V c main_v43) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  have h1 : iblk1 V c 1 t j = V c main_v30 (((cfg1.win 4).blk t).view.emb j) := by
    show V c main_v30 (((cfg1.win 1).blk t).view.emb j) = _
    refine congrArg (V c main_v30) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega
  have h2 : iblk1 V c 2 t (ix2 (j 0) (0 : Fin 1)) = V c main_v45 (ix2 ((((cfg1.win 4).blk t).view.emb j) 0) (0 : Fin 1)) := by
    show V c main_v45 (((cfg1.win 2).blk t).view.emb (ix2 (j 0) (0 : Fin 1))) = _
    refine congrArg (V c main_v45) (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have h3 : iblk1 V c 3 t (ix2 (0 : Fin 1) (j 1)) = V c main_v46 (ix2 (0 : Fin 1) ((((cfg1.win 4).blk t).view.emb j) 1)) := by
    show V c main_v46 (((cfg1.win 3).blk t).view.emb (ix2 (0 : Fin 1) (j 1))) = _
    refine congrArg (V c main_v46) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_4.index t (1 : Fin 2) * 256 + 1 * (j 1).val; omega
  rw [h0, h1, h2, h3]

/-- Every block row of the result is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- An index of the result array is in point t's block iff each coordinate is in the block's range on its axis. -/
theorem mem_blk1 (t : Fin cfg1.N) (i : S20000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v47).slice (win1_4.rect t)).set ↔ _
  rw [View.set_slice_whole, Rect.mem_set_unit]
  exact Iff.rfl

/-- The row blocks cover the result: row r lies in the block of point r / 2000. -/
theorem cover1 (i : S20000x256.Idx) : ∃ t : Fin cfg1.N, (cfg1.win 4).flush t = true ∧ i ∈ ((cfg1.win 4).blk t).view.set := by
  have hi0 : (i 0).val < 20000 := (i 0).isLt
  have hi1 : (i 1).val < 256 := (i 1).isLt
  obtain ⟨t, ht⟩ := idx_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- After the region the result array is `combine` of the four input arrays as the region found them. -/
theorem final1 (c : Dev nD) :
    (dat1 V c).arrAt 4 cfg1.N = combine (N := 20000) (D := 256) (V c main_v43) (V c main_v30) (V c main_v45) (V c main_v46) :=
  (dat1 V c).arrAt_eq_of_cover 4 _ (fun t _ => flushed1_eq V c t) cover1

end

end Cert.KernelIdeal.Whole

end
-- ==== Proof.Region2.lean ====
/-
  Region 2: the second layer's row-tiled matrix product.

  As in the first layer: point t holds rows 2000 t … 2000 t + 1999 of the left matrix (now the first layer's output,
  256 columns) and the whole right matrix, and writes the same rows of the result.  A block's product is the matrix
  product of the blocks, a row block of a product is the product of the row block with the whole right factor, and the
  ten row blocks cover the result: after the region the output array is the matrix product of the two input arrays.
-/
import proofs.«177197_j43361989820778_1_alg».proof.Proof.Gen.KernelIdeal.Frame
import proofs.«177197_j43361989820778_1_alg».proof.Proof.LibPlainMatmul
import proofs.«177197_j43361989820778_1_alg».proof.Proof.LibPlainDot
import proofs.«177197_j43361989820778_1_alg».proof.Proof.Region0
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Lib.PlainDot

theorem dotB_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dotB_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem dotB_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem dotB_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's value on a pair of blocks is their matrix product. -/
theorem pay2_eq (x0 : Vec Ideal S2000x256 .f32) (x1 : Vec Ideal S256x256 .f32) :
    k2_pay1 (F := Ideal) x0 x1 = matProd (M := 2000) (K := 256) (N := 256) x0 x1 := by
  funext j
  rw [eq_ix2 j]
  unfold k2_pay1
  dsimp only
  rw [shapeCast_self, shapeCast_self]
  exact Cert.Lib.PlainMatmul.matmul_zero_apply dot_S2000x256_S256x256_S2000x256_1_0_0_1_n_n rfl rfl (fun i q => dotB_l0 i q) (fun i q => dotB_l1 i q) (fun i q => dotB_r0 i q) (fun i q => dotB_r1 i q) none _ _ (j 0) (j 1)

section
variable (V : (c : Dev nD) → (b : Ref sig .tc) → Buf (Elt Ideal) ((c : Thread nD τ).loc b))

/-- The printed index maps over the grid: the left factor's and the result's blocks move down with the point, the
    right factor's stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays. -/
theorem flushed2_eq (c : Dev nD) (t : Fin cfg2.N) :
    (dat2 V c).flushed 2 t = ((cfg2.win 2).blk t).view.read (Elt Ideal)
      (matProd (M := 20000) (K := 256) (N := 256) (V c main_v47) (V c main_v48)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  rw [pay2_eq]
  obtain ⟨e0, e1, e2, e3, e4, e5⟩ := idx_facts2 t
  funext j
  show matProd (M := 2000) (K := 256) (N := 256) (iblk2 V c 0 t) (iblk2 V c 1 t) j
     = matProd (M := 20000) (K := 256) (N := 256) (V c main_v47) (V c main_v48) (((cfg2.win 2).blk t).view.emb j)
  simp only [matProd]
  refine Finset.sum_congr rfl fun k _ => ?_
  have hl : iblk2 V c 0 t (ix2 (j 0) k) = V c main_v47 (ix2 ((((cfg2.win 2).blk t).view.emb j) 0) k) := by
    show V c main_v47 (((cfg2.win 0).blk t).view.emb (ix2 (j 0) k)) = _
    refine congrArg (V c main_v47) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have hr : iblk2 V c 1 t (ix2 k (j 1)) = V c main_v48 (ix2 k ((((cfg2.win 2).blk t).view.emb j) 1)) := by
    show V c main_v48 (((cfg2.win 1).blk t).view.emb (ix2 k (j 1))) = _
    refine congrArg (V c main_v48) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  rw [hl, hr]

/-- Every block row of the result is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- An index of the result array is in point t's block iff each coordinate is in the block's range on its axis. -/
theorem mem_blk2 (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v49).slice (win2_2.rect t)).set ↔ _
  rw [View.set_slice_whole, Rect.mem_set_unit]
  exact Iff.rfl

/-- The row blocks cover the result: row r lies in the block of point r / 2000. -/
theorem cover2 (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the region the result array is the matrix product of the two input arrays as the region found them. -/
theorem final2 (c : Dev nD) :
    (dat2 V c).arrAt 2 cfg2.N = matProd (M := 20000) (K := 256) (N := 256) (V c main_v47) (V c main_v48) :=
  (dat2 V c).arrAt_eq_of_cover 2 _ (fun t _ => flushed2_eq V c t) cover2

end

end Cert.KernelIdeal.Whole

end
-- ==== Proof.Region3.lean ====
/-
  Region 3: the second layer's last step, row-tiled.

  Point t holds rows 2000 t … 2000 t + 1999 of the aggregated neighbours, of the transformed features and of the scale
  column, and the whole bias row; it writes the same rows of the result, `max ((a + d · x) + b) 0` entry by entry.  The
  body's vector operations on the four blocks are the function `combine` of the blocks; a row block of `combine` of
  four arrays is `combine` of their row blocks (the bias row whole), since an entry reads only its own row of the
  first three and its own column of the row; and the ten row blocks cover the result.
-/
import proofs.«177197_j43361989820778_1_alg».proof.Proof.Gen.KernelIdeal.Frame
import proofs.«177197_j43361989820778_1_alg».proof.Proof.LibPlainMatmul
import proofs.«177197_j43361989820778_1_alg».proof.Proof.LibPlainDot
import proofs.«177197_j43361989820778_1_alg».proof.Proof.Region0
import proofs.«177197_j43361989820778_1_alg».proof.Proof.LibCombine
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Lib.PlainDot

open Cert.Lib.Combine

/-- The body's value on its four blocks is `combine` of them. -/
theorem pay3_eq (a : Vec Ideal S2000x256 .f32) (d : Vec Ideal S2000x1 .f32) (x : Vec Ideal S2000x256 .f32) (b : Vec Ideal S1x256 .f32) :
    k3_pay1 (F := Ideal) a d x b = combine (N := 2000) (D := 256) a x d b := by
  unfold k3_pay1
  dsimp only
  rw [shapeCast_self, shapeCast_self, shapeCast_self, shapeCast_self]
  exact vector_form (N := 2000) (D := 256) a x d b _ _

section
variable (V : (c : Dev nD) → (b : Ref sig .tc) → Buf (Elt Ideal) ((c : Thread nD τ).loc b))

/-- The printed index maps over the grid: the aggregate's, the features', the scale column's and the result's blocks
    move down with the point; the bias row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What point t writes back is block t of `combine` of the four arrays. -/
theorem flushed3_eq (c : Dev nD) (t : Fin cfg3.N) :
    (dat3 V c).flushed 4 t = ((cfg3.win 4).blk t).view.read (Elt Ideal)
      (combine (N := 20000) (D := 256) (V c main_v62) (V c main_v49) (V c main_v64) (V c main_v65)) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x1) hz, View.ld_unit_zero (S := S1x256) hz]
  rw [pay3_eq]
  obtain ⟨e0, e1, e2, e3, e4, e5, e6, e7, e8, e9⟩ := idx_facts3 t
  funext j
  show combine (N := 2000) (D := 256) (iblk3 V c 0 t) (iblk3 V c 1 t) (iblk3 V c 2 t) (iblk3 V c 3 t) j
     = combine (N := 20000) (D := 256) (V c main_v62) (V c main_v49) (V c main_v64) (V c main_v65) (((cfg3.win 4).blk t).view.emb j)
  simp only [combine]
  have h0 : iblk3 V c 0 t j = V c main_v62 (((cfg3.win 4).blk t).view.emb j) := by
    show V c main_v62 (((cfg3.win 0).blk t).view.emb j) = _
    refine congrArg (V c main_v62) (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 256 + 1 * (j 1).val = win3_4.index t (1 : Fin 2) * 256 + 1 * (j 1).val; omega
  have h1 : iblk3 V c 1 t j = V c main_v49 (((cfg3.win 4).blk t).view.emb j) := by
    show V c main_v49 (((cfg3.win 1).blk t).view.emb j) = _
    refine congrArg (V c main_v49) (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 256 + 1 * (j 1).val = win3_4.index t (1 : Fin 2) * 256 + 1 * (j 1).val; omega
  have h2 : iblk3 V c 2 t (ix2 (j 0) (0 : Fin 1)) = V c main_v64 (ix2 ((((cfg3.win 4).blk t).view.emb j) 0) (0 : Fin 1)) := by
    show V c main_v64 (((cfg3.win 2).blk t).view.emb (ix2 (j 0) (0 : Fin 1))) = _
    refine congrArg (V c main_v64) (funext fun a => Fin.ext ?_)
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have h3 : iblk3 V c 3 t (ix2 (0 : Fin 1) (j 1)) = V c main_v65 (ix2 (0 : Fin 1) ((((cfg3.win 4).blk t).view.emb j) 1)) := by
    show V c main_v65 (((cfg3.win 3).blk t).view.emb (ix2 (0 : Fin 1) (j 1))) = _
    refine congrArg (V c main_v65) (funext fun a => Fin.ext ?_)
    match a with
    | ⟨0, _⟩ => show win3_3.index t (0 : Fin 2) * 1 + 1 * 0 = 0; omega
    | ⟨1, _⟩ => show win3_3.index t (1 : Fin 2) * 256 + 1 * (j 1).val = win3_4.index t (1 : Fin 2) * 256 + 1 * (j 1).val; omega
  rw [h0, h1, h2, h3]

/-- Every block row of the result is some point's. -/
theorem idx_onto3 : ∀ q0 : Fin 10, ∃ t : Fin cfg3.N, win3_4.index t = ![q0.val, 0] :=
  (by decide +kernel : ∀ q0 : Fin 10, ∃ t : Fin grid3.N, win3_4.index t = ![q0.val, 0])

/-- An index of the result array is in point t's block iff each coordinate is in the block's range on its axis. -/
theorem mem_blk3 (t : Fin cfg3.N) (i : S20000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v66).slice (win3_4.rect t)).set ↔ _
  rw [View.set_slice_whole, Rect.mem_set_unit]
  exact Iff.rfl

/-- The row blocks cover the result: row r lies in the block of point r / 2000. -/
theorem cover3 (i : S20000x256.Idx) : ∃ t : Fin cfg3.N, (cfg3.win 4).flush t = true ∧ i ∈ ((cfg3.win 4).blk t).view.set := by
  have hi0 : (i 0).val < 20000 := (i 0).isLt
  have hi1 : (i 1).val < 256 := (i 1).isLt
  obtain ⟨t, ht⟩ := idx_onto3 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- After the region the result array is `combine` of the four input arrays as the region found them. -/
theorem final3 (c : Dev nD) :
    (dat3 V c).arrAt 4 cfg3.N = combine (N := 20000) (D := 256) (V c main_v62) (V c main_v49) (V c main_v64) (V c main_v65) :=
  (dat3 V c).arrAt_eq_of_cover 4 _ (fun t _ => flushed3_eq V c t) cover3

end

end Cert.KernelIdeal.Whole

end
-- ==== Proof.RefStages.lean ====
/-
  The reference's two layers as matrix products and `combine`.

  In the reference every operation is a stage, a function of the program's arguments.  Two kinds of stage carry the
  arithmetic that the kernel does in its regions: each layer's `dot_general` is the matrix product of its operands, and
  the stages from the self-loop product to the rectification are `combine` of the aggregated neighbours, the
  transformed features, the squared normaliser as a column and the bias as a row.
-/
import proofs.«177197_j43361989820778_1_alg».proof.Proof.Gen.ReferenceIdeal.Read
import proofs.«177197_j43361989820778_1_alg».proof.Proof.LibPlainDot
import proofs.«177197_j43361989820778_1_alg».proof.Proof.LibCombine

noncomputable section

namespace Cert.ReferenceIdeal.Whole

open Idealize.ShloMosaic Idealize.ShloMosaic.ValueIdx
open Cert.ReferenceIdeal Cert.ReferenceIdeal.Read Cert.Lib.PlainDot Cert.Lib.Combine

/-- The first layer's transformed features are the product of the features with the transposed weights. -/
theorem xw1_eq (x0 : (⟨S20000x168, .f32⟩ : BufTy).Contents (Elt Ideal)) (x3 : (⟨S256x168, .f32⟩ : BufTy).Contents (Elt Ideal)) :
    val_main_v5 (F := Ideal) x0 x3 = matProd (M := 20000) (K := 168) (N := 256) x0 (val_main_v4 (F := Ideal) x3) := by
  unfold val_main_v5
  simp only [Host.dotGeneral]
  exact dotGeneral_eq_matProd dot_S20000x168_S168x256_S20000x256_1_0_0_1_n_n rfl rfl (fun i q => lhs_main_v5_0 i q)
    (fun i q => lhs_main_v5_1 i q) (fun i q => rhs_main_v5_0 i q) (fun i q => rhs_main_v5_1 i q) none _ x0 _

/-- The first layer's output is `combine` of its aggregate, its transformed features, the squared normaliser and
    the bias row. -/
theorem layer1_eq (x0 : (⟨S20000x168, .f32⟩ : BufTy).Contents (Elt Ideal)) (x1 : (⟨S2x320000, .i32⟩ : BufTy).Contents (Elt Ideal)) (x2 : (⟨S320000, .f32⟩ : BufTy).Contents (Elt Ideal))
    (x3 : (⟨S256x168, .f32⟩ : BufTy).Contents (Elt Ideal)) (x4 : (⟨S256, .f32⟩ : BufTy).Contents (Elt Ideal)) :
    val_main_v52 (F := Ideal) x0 x1 x2 x3 x4
      = combine (N := 20000) (D := 256) (val_main_v43 (F := Ideal) x0 x1 x2 x3) (val_main_v5 (F := Ideal) x0 x3)
          (val_main_v45 (F := Ideal) x1 x2) (val_main_v49 (F := Ideal) x4) := by
  simp only [val_main_v52, val_main_v51, val_main_v50, val_main_v48, val_main_v47, val_main_v46, val_main_call1_v0, val_main_call1_cst]
  exact host_form (N := 20000) (D := 256) _ _ _ _ _ _ _

/-- The second layer's transformed features are the product of the first layer's output with the transposed weights. -/
theorem xw2_eq (x0 : (⟨S20000x168, .f32⟩ : BufTy).Contents (Elt Ideal)) (x1 : (⟨S2x320000, .i32⟩ : BufTy).Contents (Elt Ideal)) (x2 : (⟨S320000, .f32⟩ : BufTy).Contents (Elt Ideal))
    (x3 : (⟨S256x168, .f32⟩ : BufTy).Contents (Elt Ideal)) (x4 : (⟨S256, .f32⟩ : BufTy).Contents (Elt Ideal)) (x5 : (⟨S256x256, .f32⟩ : BufTy).Contents (Elt Ideal)) :
    val_main_v54 (F := Ideal) x0 x1 x2 x3 x4 x5
      = matProd (M := 20000) (K := 256) (N := 256) (val_main_v52 (F := Ideal) x0 x1 x2 x3 x4) (val_main_v53 (F := Ideal) x5) := by
  unfold val_main_v54
  simp only [Host.dotGeneral]
  exact dotGeneral_eq_matProd dot_S20000x256_S256x256_S20000x256_1_0_0_1_n_n rfl rfl (fun i q => lhs_main_v54_0 i q)
    (fun i q => lhs_main_v54_1 i q) (fun i q => rhs_main_v54_0 i q) (fun i q => rhs_main_v54_1 i q) none _ _ _

/-- The second layer's output, the program's result, is `combine` of its aggregate, its transformed features, the
    squared normaliser and the bias row. -/
theorem layer2_eq (x0 : (⟨S20000x168, .f32⟩ : BufTy).Contents (Elt Ideal)) (x1 : (⟨S2x320000, .i32⟩ : BufTy).Contents (Elt Ideal)) (x2 : (⟨S320000, .f32⟩ : BufTy).Contents (Elt Ideal))
    (x3 : (⟨S256x168, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v101 (F := Ideal) x0 x1 x2 x3 x4 x5 x6
      = combine (N := 20000) (D := 256) (val_main_v92 (F := Ideal) x0 x1 x2 x3 x4 x5) (val_main_v54 (F := Ideal) x0 x1 x2 x3 x4 x5)
          (val_main_v94 (F := Ideal) x1 x2) (val_main_v98 (F := Ideal) x6) := by
  simp only [val_main_v101, val_main_v100, val_main_v99, val_main_v97, val_main_v96, val_main_v95, val_main_call3_v0, val_main_call3_cst]
  exact host_form (N := 20000) (D := 256) _ _ _ _ _ _ _

end Cert.ReferenceIdeal.Whole

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.LibTypedRef.lean ====
/-
  Reading and writing a buffer through a typed reference.

  The operations of a module-local function (a `where`, a `relu`, a `log_softmax` that the program calls) address their
  buffers through references that carry the value's type, and move contents in and out of a buffer by a transport along
  the equation "the buffer's type is the value's type".  Reading back through a reference what was written through it is
  the identity, whatever the proof of that equation; so in a line of such operations every intermediate value comes out
  bare, and only the first read and the last write keep a transport.
-/
import Idealize.ShloMosaic.Lib.StableHlo.Run
import proofs.«177197_j43361989820778_1_alg».proof.Proof.LibConcat2

namespace Cert.HostLine

open Idealize.ShloMosaic Idealize.ShloMosaic.StableHlo

variable {sig : RefSig} {T : BufTy} {Val : EltTy → Type}

/-- Written through a typed reference and read back through it: the value. -/
theorem ofBuf_toBuf (x : TRef sig T) (v : T.Contents Val) : x.ofBuf (x.toBuf v) = v := by
  obtain ⟨r, h, h2, h3⟩ := x
  subst h
  rfl

/-- Read through a typed reference and written back through it: the contents. -/
theorem toBuf_ofBuf (x : TRef sig T) (v : x.ref.ty.Contents Val) : x.toBuf (x.ofBuf v) = v := by
  obtain ⟨r, h, h2, h3⟩ := x
  subst h
  rfl

/-- `host_line` for a line that holds a called function's operations: the same pass, which also cancels each write
    through a typed reference against the read that follows it. -/
macro "host_call_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold, ofBuf_toBuf]))

end Cert.HostLine
-- ==== Proof.Chain.lean ====
/-
  The kernel's result, stage by stage, is the reference's.

  The kernel program and the reference are the same host program around two layers, except that the kernel computes
  each layer's matrix product and last step in regions, and computes the normaliser and the edge weights once where the
  reference computes them once per layer.  Following the fold of buffer contents through the kernel program, each buffer
  that matters holds the value of a stage of the reference at the launch arguments: the index arrays, the normaliser
  and the edge weights by the same operations; each region's output by the region's whole-array function (a matrix
  product, `combine`) and the reference's `dot_general` or tail of stages being that function; each aggregate by the
  same scatter of the same gathered rows.  The last buffer is the result.
-/
import proofs.«177197_j43361989820778_1_alg».proof.Proof.Region1
import proofs.«177197_j43361989820778_1_alg».proof.Proof.Region2
import proofs.«177197_j43361989820778_1_alg».proof.Proof.Region3
import proofs.«177197_j43361989820778_1_alg».proof.Proof.RefStages
import proofs.«177197_j43361989820778_1_alg».proof.Proof.LibTypedRef
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen Cert.HostLine Cert.Lib.PlainDot Cert.Lib.Combine
open Cert.ReferenceIdeal.Read Cert.ReferenceIdeal.Whole

variable (m : (ℓ : Loc nD τ sig) → Buf (Elt Ideal) ℓ) (ρ : Dev nD → PrngReg)

/-! ## At region 0's entry: what the first three stretches of host operations leave -/

/-- The features are as launched. -/
theorem at3_arg0 (c : Dev nD) :
    (W3 m ρ c (Proc.devRef .tc main_arg0) : S20000x168.Idx → EReal) = (m ((c.tc : Thread nD τ).loc main_arg0)) := by
  show StableHlo.after hostOps0_2 (StableHlo.after hostOps0_1 (StableHlo.after hostOps0 (W0 m ρ c))) (Proc.devRef .tc main_arg0) = _
  host_call_line <;> (try simp only [TRef.ofBuf, TRef.toBuf, cast_eq]) <;> rfl

/-- The first bias is as launched. -/
theorem at3_arg4 (c : Dev nD) :
    (W3 m ρ c (Proc.devRef .tc main_arg4) : S256.Idx → EReal) = (m ((c.tc : Thread nD τ).loc main_arg4)) := by
  show StableHlo.after hostOps0_2 (StableHlo.after hostOps0_1 (StableHlo.after hostOps0 (W0 m ρ c))) (Proc.devRef .tc main_arg4) = _
  host_call_line <;> (try simp only [TRef.ofBuf, TRef.toBuf, cast_eq]) <;> rfl

/-- The second weights are as launched. -/
theorem at3_arg5 (c : Dev nD) :
    (W3 m ρ c (Proc.devRef .tc main_arg5) : S256x256.Idx → EReal) = (m ((c.tc : Thread nD τ).loc main_arg5)) := by
  show StableHlo.after hostOps0_2 (StableHlo.after hostOps0_1 (StableHlo.after hostOps0 (W0 m ρ c))) (Proc.devRef .tc main_arg5) = _
  host_call_line <;> (try simp only [TRef.ofBuf, TRef.toBuf, cast_eq]) <;> rfl

/-- The second bias is as launched. -/
theorem at3_arg6 (c : Dev nD) :
    (W3 m ρ c (Proc.devRef .tc main_arg6) : S256.Idx → EReal) = (m ((c.tc : Thread nD τ).loc main_arg6)) := by
  show StableHlo.after hostOps0_2 (StableHlo.after hostOps0_1 (StableHlo.after hostOps0 (W0 m ρ c))) (Proc.devRef .tc main_arg6) = _
  host_call_line <;> (try simp only [TRef.ofBuf, TRef.toBuf, cast_eq]) <;> rfl

/-- The transposed first weights. -/
theorem at3_v29 (c : Dev nD) :
    (W3 m ρ c (Proc.devRef .tc main_v29) : S168x256.Idx → EReal) = val_main_v4 (F := Ideal) (m ((c.tc : Thread nD τ).loc main_arg3)) := by
  show StableHlo.after hostOps0_2 (StableHlo.after hostOps0_1 (StableHlo.after hostOps0 (W0 m ρ c))) (Proc.devRef .tc main_v29) = _
  host_call_line <;> (try simp only [TRef.ofBuf, TRef.toBuf, cast_eq]) <;> rfl

/-- The source node of each edge. -/
theorem at3_v1 (c : Dev nD) :
    (W3 m ρ c (Proc.devRef .tc main_v1) : S320000.Idx → BitVec 32) = val_main_v1 (F := Ideal) (m ((c.tc : Thread nD τ).loc main_arg1)) := by
  show StableHlo.after hostOps0_2 (StableHlo.after hostOps0_1 (StableHlo.after hostOps0 (W0 m ρ c))) (Proc.devRef .tc main_v1) = _
  host_call_line <;> (try simp only [TRef.ofBuf, TRef.toBuf, cast_eq]) <;> rfl

/-- The target node of each edge. -/
theorem at3_v3 (c : Dev nD) :
    (W3 m ρ c (Proc.devRef .tc main_v3) : S320000.Idx → BitVec 32) = val_main_v3 (F := Ideal) (m ((c.tc : Thread nD τ).loc main_arg1)) := by
  show StableHlo.after hostOps0_2 (StableHlo.after hostOps0_1 (StableHlo.after hostOps0 (W0 m ρ c))) (Proc.devRef .tc main_v3) = _
  host_call_line <;> (try simp only [TRef.ofBuf, TRef.toBuf, cast_eq]) <;> rfl

/-- The normaliser: the inverse square root of each node's weighted in-degree plus one, zero where that is not positive. -/
theorem at3_v12 (c : Dev nD) :
    (W3 m ρ c (Proc.devRef .tc main_v12) : S20000.Idx → EReal) = val_main_v14 (F := Ideal) (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v12) = _
  host_call_line <;> (try simp only [TRef.ofBuf, TRef.toBuf, cast_eq]) <;> rfl

/-- The edge weights: each edge's weight between its end points' normalisers. -/
theorem at3_v28 (c : Dev nD) :
    (W3 m ρ c (Proc.devRef .tc main_v28) : S320000.Idx → EReal) = val_main_v30 (F := Ideal) (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v28) = _
  host_call_line <;> (try simp only [TRef.ofBuf, TRef.toBuf, cast_eq]) <;> rfl

/-! ## After region 0: the first layer's transformed features -/

theorem at4_v1 (c : Dev nD) :
    (W4 m ρ c (Proc.devRef .tc main_v1) : S320000.Idx → BitVec 32) = val_main_v1 (F := Ideal) (m ((c.tc : Thread nD τ).loc main_arg1)) :=
  (W4_of_ne m ρ c main_v1 (by decide)).trans (at3_v1 m ρ c)

theorem at4_v3 (c : Dev nD) :
    (W4 m ρ c (Proc.devRef .tc main_v3) : S320000.Idx → BitVec 32) = val_main_v3 (F := Ideal) (m ((c.tc : Thread nD τ).loc main_arg1)) :=
  (W4_of_ne m ρ c main_v3 (by decide)).trans (at3_v3 m ρ c)

theorem at4_v12 (c : Dev nD) :
    (W4 m ρ c (Proc.devRef .tc main_v12) : S20000.Idx → EReal) = val_main_v14 (F := Ideal) (m ((c.tc : Thread nD τ).loc main_arg1)) (m ((c.tc : Thread nD τ).loc main_arg2)) :=
  (W4_of_ne m ρ c main_v12 (by decide)).trans (at3_v12 m ρ c)

theorem at4_v28 (c : Dev nD) :
    (W4 m ρ c (Proc.devRef .tc main_v28) : S320000.Idx → EReal) = val_main_v30 (F := Ideal) (m ((c.tc : Thread nD τ).loc main_arg1)) (m ((c.tc : Thread nD τ).loc main_arg2)) :=
  (W4_of_ne m ρ c main_v28 (by decide)).trans (at3_v28 m ρ c)

theorem at4_arg4 (c : Dev nD) :
    (W4 m ρ c (Proc.devRef .tc main_arg4) : S256.Idx → EReal) = (m ((c.tc : Thread nD τ).loc main_arg4)) :=
  (W4_of_ne m ρ c main_arg4 (by decide)).trans (at3_arg4 m ρ c)

theorem at4_arg5 (c : Dev nD) :
    (W4 m ρ c (Proc.devRef .tc main_arg5) : S256x256.Idx → EReal) = (m ((c.tc : Thread nD τ).loc main_arg5)) :=
  (W4_of_ne m ρ c main_arg5 (by decide)).trans (at3_arg5 m ρ c)

theorem at4_arg6 (c : Dev nD) :
    (W4 m ρ c (Proc.devRef .tc main_arg6) : S256.Idx → EReal) = (m ((c.tc : Thread nD τ).loc main_arg6)) :=
  (W4_of_ne m ρ c main_arg6 (by decide)).trans (at3_arg6 m ρ c)

/-- Region 0 leaves the product of the features with the transposed weights: the reference's `dot_general`. -/
theorem at4_v30 (c : Dev nD) :
    (W4 m ρ c (Proc.devRef .tc main_v30) : S20000x256.Idx → EReal) = val_main_v5 (F := Ideal) (m ((c.tc : Thread nD τ).loc main_arg0)) (m ((c.tc : Thread nD τ).loc main_arg3)) :=
  (W4_arr m ρ c 2).trans ((final0 (V3 m ρ) c).trans
    ((congrArg₂ (matProd (M := 20000) (K := 168) (N := 256)) (at3_arg0 m ρ c) (at3_v29 m ρ c)).trans (xw1_eq _ _).symm))

/-! ## At region 1's entry: the first aggregate, the squared normaliser, the bias row -/

theorem at5_v1 (c : Dev nD) :
    (W5 m ρ c (Proc.devRef .tc main_v1) : S320000.Idx → BitVec 32) = val_main_v1 (F := Ideal) (m ((c.tc : Thread nD τ).loc main_arg1)) :=
  (show StableHlo.after hostOps1 (W4 m ρ c) (Proc.devRef .tc main_v1) = W4 m ρ c (Proc.devRef .tc main_v1) by host_call_line).trans (at4_v1 m ρ c)

theorem at5_v3 (c : Dev nD) :
    (W5 m ρ c (Proc.devRef .tc main_v3) : S320000.Idx → BitVec 32) = val_main_v3 (F := Ideal) (m ((c.tc : Thread nD τ).loc main_arg1)) :=
  (show StableHlo.after hostOps1 (W4 m ρ c) (Proc.devRef .tc main_v3) = W4 m ρ c (Proc.devRef .tc main_v3) by host_call_line).trans (at4_v3 m ρ c)

theorem at5_v12 (c : Dev nD) :
    (W5 m ρ c (Proc.devRef .tc main_v12) : S20000.Idx → EReal) = val_main_v14 (F := Ideal) (m ((c.tc : Thread nD τ).loc main_arg1)) (m ((c.tc : Thread nD τ).loc main_arg2)) :=
  (show StableHlo.after hostOps1 (W4 m ρ c) (Proc.devRef .tc main_v12) = W4 m ρ c (Proc.devRef .tc main_v12) by host_call_line).trans (at4_v12 m ρ c)

theorem at5_v28 (c : Dev nD) :
    (W5 m ρ c (Proc.devRef .tc main_v28) : S320000.Idx → EReal) = val_main_v30 (F := Ideal) (m ((c.tc : Thread nD τ).loc main_arg1)) (m ((c.tc : Thread nD τ).loc main_arg2)) :=
  (show StableHlo.after hostOps1 (W4 m ρ c) (Proc.devRef .tc main_v28) = W4 m ρ c (Proc.devRef .tc main_v28) by host_call_line).trans (at4_v28 m ρ c)

theorem at5_arg5 (c : Dev nD) :
    (W5 m ρ c (Proc.devRef .tc main_arg5) : S256x256.Idx → EReal) = (m ((c.tc : Thread nD τ).loc main_arg5)) :=
  (show StableHlo.after hostOps1 (W4 m ρ c) (Proc.devRef .tc main_arg5) = W4 m ρ c (Proc.devRef .tc main_arg5) by host_call_line).trans (at4_arg5 m ρ c)

theorem at5_arg6 (c : Dev nD) :
    (W5 m ρ c (Proc.devRef .tc main_arg6) : S256.Idx → EReal) = (m ((c.tc : Thread nD τ).loc main_arg6)) :=
  (show StableHlo.after hostOps1 (W4 m ρ c) (Proc.devRef .tc main_arg6) = W4 m ρ c (Proc.devRef .tc main_arg6) by host_call_line).trans (at4_arg6 m ρ c)

theorem at5_v30 (c : Dev nD) :
    (W5 m ρ c (Proc.devRef .tc main_v30) : S20000x256.Idx → EReal) = val_main_v5 (F := Ideal) (m ((c.tc : Thread nD τ).loc main_arg0)) (m ((c.tc : Thread nD τ).loc main_arg3)) :=
  (show StableHlo.after hostOps1 (W4 m ρ c) (Proc.devRef .tc main_v30) = W4 m ρ c (Proc.devRef .tc main_v30) by host_call_line).trans (at4_v30 m ρ c)

/-- The aggregate: the weighted rows of the transformed features gathered at each edge's source, summed at its target. -/
theorem at5_v43 (c : Dev nD) :
    (W5 m ρ c (Proc.devRef .tc main_v43) : S20000x256.Idx → EReal) = val_main_v43 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W4 m ρ c) (Proc.devRef .tc main_v43) = _
  host_call_line
  rw [at4_v3 m ρ c, at4_v28 m ρ c, at4_v30 m ρ c, at4_v1 m ρ c]
  rfl

/-- The squared normaliser as a column. -/
theorem at5_v45 (c : Dev nD) :
    (W5 m ρ c (Proc.devRef .tc main_v45) : S20000x1.Idx → EReal) = val_main_v45 (F := Ideal) (m ((c.tc : Thread nD τ).loc main_arg1)) (m ((c.tc : Thread nD τ).loc main_arg2)) := by
  show StableHlo.after hostOps1 (W4 m ρ c) (Proc.devRef .tc main_v45) = _
  host_call_line
  rw [at4_v12 m ρ c]
  rfl

/-- The bias as a row: the kernel's reshape is the reference's broadcast in dimension 1. -/
theorem at5_v46 (c : Dev nD) :
    (W5 m ρ c (Proc.devRef .tc main_v46) : S1x256.Idx → EReal) = val_main_v49 (F := Ideal) (m ((c.tc : Thread nD τ).loc main_arg4)) := by
  show StableHlo.after hostOps1 (W4 m ρ c) (Proc.devRef .tc main_v46) = _
  host_call_line
  rw [at4_arg4 m ρ c]
  exact row_reshape_eq_broadcast (D := 256) _ _ _

/-! ## After region 1: the first layer's output -/

theorem at6_v1 (c : Dev nD) :
    (W6 m ρ c (Proc.devRef .tc main_v1) : S320000.Idx → BitVec 32) = val_main_v1 (F := Ideal) (m ((c.tc : Thread nD τ).loc main_arg1)) :=
  (W6_of_ne m ρ c main_v1 (by decide)).trans (at5_v1 m ρ c)

theorem at6_v3 (c : Dev nD) :
    (W6 m ρ c (Proc.devRef .tc main_v3) : S320000.Idx → BitVec 32) = val_main_v3 (F := Ideal) (m ((c.tc : Thread nD τ).loc main_arg1)) :=
  (W6_of_ne m ρ c main_v3 (by decide)).trans (at5_v3 m ρ c)

theorem at6_v12 (c : Dev nD) :
    (W6 m ρ c (Proc.devRef .tc main_v12) : S20000.Idx → EReal) = val_main_v14 (F := Ideal) (m ((c.tc : Thread nD τ).loc main_arg1)) (m ((c.tc : Thread nD τ).loc main_arg2)) :=
  (W6_of_ne m ρ c main_v12 (by decide)).trans (at5_v12 m ρ c)

theorem at6_v28 (c : Dev nD) :
    (W6 m ρ c (Proc.devRef .tc main_v28) : S320000.Idx → EReal) = val_main_v30 (F := Ideal) (m ((c.tc : Thread nD τ).loc main_arg1)) (m ((c.tc : Thread nD τ).loc main_arg2)) :=
  (W6_of_ne m ρ c main_v28 (by decide)).trans (at5_v28 m ρ c)

theorem at6_arg5 (c : Dev nD) :
    (W6 m ρ c (Proc.devRef .tc main_arg5) : S256x256.Idx → EReal) = (m ((c.tc : Thread nD τ).loc main_arg5)) :=
  (W6_of_ne m ρ c main_arg5 (by decide)).trans (at5_arg5 m ρ c)

theorem at6_arg6 (c : Dev nD) :
    (W6 m ρ c (Proc.devRef .tc main_arg6) : S256.Idx → EReal) = (m ((c.tc : Thread nD τ).loc main_arg6)) :=
  (W6_of_ne m ρ c main_arg6 (by decide)).trans (at5_arg6 m ρ c)

/-- Region 1 leaves `combine` of the aggregate, the transformed features, the squared normaliser and the bias row:
    the reference's first layer. -/
theorem at6_v47 (c : Dev nD) :
    (W6 m ρ c (Proc.devRef .tc main_v47) : S20000x256.Idx → EReal) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 4).trans ((final1 (V5 m ρ) c).trans
    ((congr (congr (congr (congrArg (combine (N := 20000) (D := 256)) (at5_v43 m ρ c)) (at5_v30 m ρ c)) (at5_v45 m ρ c)) (at5_v46 m ρ c)).trans
      (layer1_eq _ _ _ _ _).symm))

/-! ## At region 2's entry, and after it: the second layer's transformed features -/

theorem at7_v1 (c : Dev nD) :
    (W7 m ρ c (Proc.devRef .tc main_v1) : S320000.Idx → BitVec 32) = val_main_v1 (F := Ideal) (m ((c.tc : Thread nD τ).loc main_arg1)) :=
  (show StableHlo.after hostOps2 (W6 m ρ c) (Proc.devRef .tc main_v1) = W6 m ρ c (Proc.devRef .tc main_v1) by host_call_line).trans (at6_v1 m ρ c)

theorem at7_v3 (c : Dev nD) :
    (W7 m ρ c (Proc.devRef .tc main_v3) : S320000.Idx → BitVec 32) = val_main_v3 (F := Ideal) (m ((c.tc : Thread nD τ).loc main_arg1)) :=
  (show StableHlo.after hostOps2 (W6 m ρ c) (Proc.devRef .tc main_v3) = W6 m ρ c (Proc.devRef .tc main_v3) by host_call_line).trans (at6_v3 m ρ c)

theorem at7_v12 (c : Dev nD) :
    (W7 m ρ c (Proc.devRef .tc main_v12) : S20000.Idx → EReal) = val_main_v14 (F := Ideal) (m ((c.tc : Thread nD τ).loc main_arg1)) (m ((c.tc : Thread nD τ).loc main_arg2)) :=
  (show StableHlo.after hostOps2 (W6 m ρ c) (Proc.devRef .tc main_v12) = W6 m ρ c (Proc.devRef .tc main_v12) by host_call_line).trans (at6_v12 m ρ c)

theorem at7_v28 (c : Dev nD) :
    (W7 m ρ c (Proc.devRef .tc main_v28) : S320000.Idx → EReal) = val_main_v30 (F := Ideal) (m ((c.tc : Thread nD τ).loc main_arg1)) (m ((c.tc : Thread nD τ).loc main_arg2)) :=
  (show StableHlo.after hostOps2 (W6 m ρ c) (Proc.devRef .tc main_v28) = W6 m ρ c (Proc.devRef .tc main_v28) by host_call_line).trans (at6_v28 m ρ c)

theorem at7_arg6 (c : Dev nD) :
    (W7 m ρ c (Proc.devRef .tc main_arg6) : S256.Idx → EReal) = (m ((c.tc : Thread nD τ).loc main_arg6)) :=
  (show StableHlo.after hostOps2 (W6 m ρ c) (Proc.devRef .tc main_arg6) = W6 m ρ c (Proc.devRef .tc main_arg6) by host_call_line).trans (at6_arg6 m ρ c)

theorem at7_v47 (c : Dev nD) :
    (W7 m ρ c (Proc.devRef .tc main_v47) : S20000x256.Idx → EReal) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (show StableHlo.after hostOps2 (W6 m ρ c) (Proc.devRef .tc main_v47) = W6 m ρ c (Proc.devRef .tc main_v47) by host_call_line).trans (at6_v47 m ρ c)

/-- The transposed second weights. -/
theorem at7_v48 (c : Dev nD) :
    (W7 m ρ c (Proc.devRef .tc main_v48) : S256x256.Idx → EReal) = val_main_v53 (F := Ideal) (m ((c.tc : Thread nD τ).loc main_arg5)) := by
  show StableHlo.after hostOps2 (W6 m ρ c) (Proc.devRef .tc main_v48) = _
  host_call_line
  rw [at6_arg5 m ρ c]
  rfl

theorem at8_v1 (c : Dev nD) :
    (W8 m ρ c (Proc.devRef .tc main_v1) : S320000.Idx → BitVec 32) = val_main_v1 (F := Ideal) (m ((c.tc : Thread nD τ).loc main_arg1)) :=
  (W8_of_ne m ρ c main_v1 (by decide)).trans (at7_v1 m ρ c)

theorem at8_v3 (c : Dev nD) :
    (W8 m ρ c (Proc.devRef .tc main_v3) : S320000.Idx → BitVec 32) = val_main_v3 (F := Ideal) (m ((c.tc : Thread nD τ).loc main_arg1)) :=
  (W8_of_ne m ρ c main_v3 (by decide)).trans (at7_v3 m ρ c)

theorem at8_v12 (c : Dev nD) :
    (W8 m ρ c (Proc.devRef .tc main_v12) : S20000.Idx → EReal) = val_main_v14 (F := Ideal) (m ((c.tc : Thread nD τ).loc main_arg1)) (m ((c.tc : Thread nD τ).loc main_arg2)) :=
  (W8_of_ne m ρ c main_v12 (by decide)).trans (at7_v12 m ρ c)

theorem at8_v28 (c : Dev nD) :
    (W8 m ρ c (Proc.devRef .tc main_v28) : S320000.Idx → EReal) = val_main_v30 (F := Ideal) (m ((c.tc : Thread nD τ).loc main_arg1)) (m ((c.tc : Thread nD τ).loc main_arg2)) :=
  (W8_of_ne m ρ c main_v28 (by decide)).trans (at7_v28 m ρ c)

theorem at8_arg6 (c : Dev nD) :
    (W8 m ρ c (Proc.devRef .tc main_arg6) : S256.Idx → EReal) = (m ((c.tc : Thread nD τ).loc main_arg6)) :=
  (W8_of_ne m ρ c main_arg6 (by decide)).trans (at7_arg6 m ρ c)

/-- Region 2 leaves the product of the first layer's output with the transposed weights. -/
theorem at8_v49 (c : Dev nD) :
    (W8 m ρ c (Proc.devRef .tc main_v49) : S20000x256.Idx → EReal) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((final2 (V7 m ρ) c).trans
    ((congrArg₂ (matProd (M := 20000) (K := 256) (N := 256)) (at7_v47 m ρ c) (at7_v48 m ρ c)).trans (xw2_eq _ _ _ _ _ _).symm))

/-! ## At region 3's entry, and after it: the result -/

theorem at9_v49 (c : Dev nD) :
    (W9 m ρ c (Proc.devRef .tc main_v49) : S20000x256.Idx → EReal) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (show StableHlo.after hostOps3 (W8 m ρ c) (Proc.devRef .tc main_v49) = W8 m ρ c (Proc.devRef .tc main_v49) by host_call_line).trans (at8_v49 m ρ c)

/-- The second aggregate: the same edge weights, which the reference computes again, on the second layer's transformed features. -/
theorem at9_v62 (c : Dev nD) :
    (W9 m ρ c (Proc.devRef .tc main_v62) : S20000x256.Idx → EReal) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps3 (W8 m ρ c) (Proc.devRef .tc main_v62) = _
  host_call_line
  rw [at8_v3 m ρ c, at8_v28 m ρ c, at8_v49 m ρ c, at8_v1 m ρ c]
  rfl

/-- The squared normaliser as a column, again. -/
theorem at9_v64 (c : Dev nD) :
    (W9 m ρ c (Proc.devRef .tc main_v64) : S20000x1.Idx → EReal) = val_main_v94 (F := Ideal) (m ((c.tc : Thread nD τ).loc main_arg1)) (m ((c.tc : Thread nD τ).loc main_arg2)) := by
  show StableHlo.after hostOps3 (W8 m ρ c) (Proc.devRef .tc main_v64) = _
  host_call_line
  rw [at8_v12 m ρ c]
  rfl

/-- The second bias as a row. -/
theorem at9_v65 (c : Dev nD) :
    (W9 m ρ c (Proc.devRef .tc main_v65) : S1x256.Idx → EReal) = val_main_v98 (F := Ideal) (m ((c.tc : Thread nD τ).loc main_arg6)) := by
  show StableHlo.after hostOps3 (W8 m ρ c) (Proc.devRef .tc main_v65) = _
  host_call_line
  rw [at8_arg6 m ρ c]
  exact row_reshape_eq_broadcast (D := 256) _ _ _

/-- Region 3 leaves `combine` of the second aggregate, the second transformed features, the squared normaliser and
    the second bias row: the reference's result. -/
theorem at10_v66 (c : Dev nD) :
    (W10 m ρ c (Proc.devRef .tc main_v66) : S20000x256.Idx → EReal) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W10_arr m ρ c 4).trans ((final3 (V9 m ρ) c).trans
    ((congr (congr (congr (congrArg (combine (N := 20000) (D := 256)) (at9_v62 m ρ c)) (at9_v49 m ρ c)) (at9_v64 m ρ c)) (at9_v65 m ρ c)).trans
      (layer2_eq _ _ _ _ _ _ _).symm))

end Cert.KernelIdeal.Whole

end
-- ==== Proof.lean ====
/-
  A two-layer graph convolution with symmetric normalisation and self-loops, each layer followed by a rectification:
  per layer, out = max ((A + d² · XW) + b, 0), where XW is the features times the transposed weights, A sums over
  each node's incoming edges the edge weight times the source's row of XW, d is the inverse square root of the node's
  weighted in-degree plus one (zero where that is not positive), and the edge weight is the given weight between its
  end points' d.

  The kernel program computes XW in a row-tiled matrix-product region and the last step
  max ((A + d² · XW) + b, 0) in a row-tiled pointwise region, and everything else (degrees, normaliser, edge weights,
  the gather of source rows and the scatter to targets) on the host, once; the reference computes all of it on the
  host, the normaliser and the edge weights once per layer.  On the extended reals the two are the same function of
  the arguments, with no appeal to finiteness: a row block of a matrix product is the product of the row block with the
  whole right factor, so the tiled product is the whole product, which is what the host's contraction computes; a row
  block of the last step depends only on the same rows of its operands and on the whole bias row, so the tiled step is
  the whole one, which is what the host's broadcasts and pointwise operations compute; every other operation is the
  same operation on equal operands.  The idealization rewrote nothing, so its ledger is empty.
-/
import proofs.«177197_j43361989820778_1_alg».proof.Defs
import proofs.«177197_j43361989820778_1_alg».proof.Proof.Gen.Kernel
import proofs.«177197_j43361989820778_1_alg».proof.Proof.Gen.Kernel.Skeleton
import proofs.«177197_j43361989820778_1_alg».proof.Proof.Gen.Kernel.Launch
import proofs.«177197_j43361989820778_1_alg».proof.Proof.Gen.Kernel.Points
import proofs.«177197_j43361989820778_1_alg».proof.Proof.Gen.Kernel.Frame
import proofs.«177197_j43361989820778_1_alg».proof.Proof.Gen.KernelIdeal
import proofs.«177197_j43361989820778_1_alg».proof.Proof.Gen.KernelIdeal.Skeleton
import proofs.«177197_j43361989820778_1_alg».proof.Proof.Gen.KernelIdeal.Launch
import proofs.«177197_j43361989820778_1_alg».proof.Proof.Gen.KernelIdeal.Points
import proofs.«177197_j43361989820778_1_alg».proof.Proof.Gen.KernelIdeal.Frame
import proofs.«177197_j43361989820778_1_alg».proof.Proof.Gen.ReferenceIdeal
import proofs.«177197_j43361989820778_1_alg».proof.Proof.Gen.Pre_finite_inputs
import proofs.«177197_j43361989820778_1_alg».proof.Proof.Gen.ReferenceIdeal.Run
import proofs.«177197_j43361989820778_1_alg».proof.Proof.Gen.ReferenceIdeal.Read
import proofs.«177197_j43361989820778_1_alg».proof.Proof.KernelRun
import proofs.«177197_j43361989820778_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments:
    the kernel's result buffer by the chain of stages through its regions, the reference's by its run. -/
theorem algebraic : Cert.algebraic_KernelIdeal_ReferenceIdeal := by
  intro m ρ m' ρ' _ hagree
  refine ⟨fun c => Cert.ReferenceIdeal.Read.val_main_v101 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.at10_v66 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v101_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
